-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S64x256x3136 : Shape := ⟨3, ![64, 256, 3136]⟩
abbrev S8x64x3136 : Shape := ⟨3, ![8, 64, 3136]⟩
abbrev S7x32x3136 : Shape := ⟨3, ![7, 32, 3136]⟩
abbrev S1x32x3136 : Shape := ⟨3, ![1, 32, 3136]⟩

abbrev nBuf : Space → Nat
  | .hbm => 4
  | .vmem => 4
  | .smem => 0
  | _ => 0

abbrev bufTy : (tb : Table) → Fin (tcTables nBuf tb) → BufTy
  | .hbm, ⟨0, _⟩ => ⟨S64x256x56x56, .f32⟩
  | .hbm, ⟨1, _⟩ => ⟨S64x256x3136, .f32⟩
  | .hbm, ⟨2, _⟩ => ⟨S64x256x3136, .f32⟩
  | .hbm, ⟨3, _⟩ => ⟨S64x256x56x56, .f32⟩
  | .local _ .vmem, ⟨0, _⟩ => ⟨S8x64x3136, .f32⟩
  | .local _ .vmem, ⟨1, _⟩ => ⟨S8x64x3136, .f32⟩
  | .local _ .vmem, ⟨2, _⟩ => ⟨S8x64x3136, .f32⟩
  | .local _ .vmem, ⟨3, _⟩ => ⟨S8x64x3136, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S64x256x56x56_S64x256x3136 : S64x256x56x56.ShapeCasts S64x256x3136
  inb_S8x64x3136_S7x32x3136_1_0_0 : ∀ a, (![1, 0, 0] : Fin 3 → Nat) a + S7x32x3136.size a ≤ S8x64x3136.size a
  h_S7x32x3136 : 0 < S7x32x3136.numel
  shapeCasts_S7x32x3136_S7x32x3136 : S7x32x3136.ShapeCasts S7x32x3136
  inb_S8x64x3136_S7x32x3136_0_0_0 : ∀ a, (![0, 0, 0] : Fin 3 → Nat) a + S7x32x3136.size a ≤ S8x64x3136.size a
  inb_S8x64x3136_S1x32x3136_7_0_0 : ∀ a, (![7, 0, 0] : Fin 3 → Nat) a + S1x32x3136.size a ≤ S8x64x3136.size a
  h_S1x32x3136 : 0 < S1x32x3136.numel
  inb_S8x64x3136_S7x32x3136_0_32_0 : ∀ a, (![0, 32, 0] : Fin 3 → Nat) a + S7x32x3136.size a ≤ S8x64x3136.size a
  inb_S8x64x3136_S7x32x3136_1_32_0 : ∀ a, (![1, 32, 0] : Fin 3 → Nat) a + S7x32x3136.size a ≤ S8x64x3136.size a
  inb_S8x64x3136_S1x32x3136_0_32_0 : ∀ a, (![0, 32, 0] : Fin 3 → Nat) a + S1x32x3136.size a ≤ S8x64x3136.size a
  inb_S8x64x3136_S8x64x3136_0_0_0 : ∀ a, (![0, 0, 0] : Fin 3 → Nat) a + S8x64x3136.size a ≤ S8x64x3136.size a
  h_S8x64x3136 : 0 < S8x64x3136.numel
  shapeCasts_S8x64x3136_S8x64x3136 : S8x64x3136.ShapeCasts S8x64x3136
  shapeCasts_S64x256x3136_S64x256x56x56 : S64x256x3136.ShapeCasts S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x3136.size a ≤ S64x256x3136.size a
  hwx0_0 : ∀ i : grid0.Coords, EltTy.bits .f32 = 32 ∨ (Rect.block (s := S64x256x3136) S8x64x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x3136.size a ≤ S64x256x3136.size a
  hwx0_1 : ∀ i : grid0.Coords, EltTy.bits .f32 = 32 ∨ (Rect.block (s := S64x256x3136) S8x64x3136.size (cc0_transform_1 i) (hinb0_1 i)).WholeWords (EltTy.packing .f32)

variable [Facts₀]

abbrev win0_0 : Pipeline.Window sig grid0 :=
  Pipeline.Window.ofSpec (Memref.whole main_v0) S8x64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x64x3136.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) && !(k0_cond2 i == 1#1) | ⟨_ + 2, h⟩ => absurd h (Nat.not_lt.2 (Nat.le_add_left _ _))

class Facts : Prop extends Facts₀ where

variable [Facts]
-- ==== ReferenceIdeal.lean ====
abbrev S64x256x56x56 : Shape := ⟨4, ![64, 256, 56, 56]⟩
abbrev S8x8x256x56x56 : Shape := ⟨5, ![8, 8, 256, 56, 56]⟩
abbrev S8x8x32x56x56 : Shape := ⟨5, ![8, 8, 32, 56, 56]⟩
abbrev S8x8x192x56x56 : Shape := ⟨5, ![8, 8, 192, 56, 56]⟩
abbrev S_ : Shape := ⟨0, ![]⟩
abbrev S8x1x32x56x56 : Shape := ⟨5, ![8, 1, 32, 56, 56]⟩
abbrev S8x7x32x56x56 : Shape := ⟨5, ![8, 7, 32, 56, 56]⟩

abbrev nBuf : Space → Nat
  | .hbm => 13
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S8x8x256x56x56, .f32⟩
  | .hbm, ⟨2, _⟩ => ⟨S8x8x32x56x56, .f32⟩
  | .hbm, ⟨3, _⟩ => ⟨S8x8x32x56x56, .f32⟩
  | .hbm, ⟨4, _⟩ => ⟨S8x8x192x56x56, .f32⟩
  | .hbm, ⟨5, _⟩ => ⟨S_, .f32⟩
  | .hbm, ⟨6, _⟩ => ⟨S8x1x32x56x56, .f32⟩
  | .hbm, ⟨7, _⟩ => ⟨S8x7x32x56x56, .f32⟩
  | .hbm, ⟨8, _⟩ => ⟨S8x8x32x56x56, .f32⟩
  | .hbm, ⟨9, _⟩ => ⟨S8x7x32x56x56, .f32⟩
  | .hbm, ⟨10, _⟩ => ⟨S8x8x32x56x56, .f32⟩
  | .hbm, ⟨11, _⟩ => ⟨S8x8x256x56x56, .f32⟩
  | .hbm, ⟨12, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]

class Facts₀ : Prop where
  shapeCasts_S64x256x56x56_S8x8x256x56x56 : S64x256x56x56.ShapeCasts S8x8x256x56x56
  slices_S8x8x256x56x56_S8x8x32x56x56_0_0_0_0_0 : S8x8x256x56x56.Slices ![0, 0, 0, 0, 0] S8x8x32x56x56
  slices_S8x8x256x56x56_S8x8x32x56x56_0_0_32_0_0 : S8x8x256x56x56.Slices ![0, 0, 32, 0, 0] S8x8x32x56x56
  slices_S8x8x256x56x56_S8x8x192x56x56_0_0_64_0_0 : S8x8x256x56x56.Slices ![0, 0, 64, 0, 0] S8x8x192x56x56
  bcast_S_S8x1x32x56x56 : S_.BroadcastsInDim S8x1x32x56x56 (![] : Fin 0 → Fin S8x1x32x56x56.rank)
  slices_S8x8x32x56x56_S8x7x32x56x56_0_1_0_0_0 : S8x8x32x56x56.Slices ![0, 1, 0, 0, 0] S8x7x32x56x56
  concatenates_S8x7x32x56x56_S8x1x32x56x56_S8x8x32x56x56_d1 : Shape.Concatenates [S8x7x32x56x56, S8x1x32x56x56] S8x8x32x56x56 1
  slices_S8x8x32x56x56_S8x7x32x56x56_0_0_0_0_0 : S8x8x32x56x56.Slices ![0, 0, 0, 0, 0] S8x7x32x56x56
  concatenates_S8x1x32x56x56_S8x7x32x56x56_S8x8x32x56x56_d1 : Shape.Concatenates [S8x1x32x56x56, S8x7x32x56x56] S8x8x32x56x56 1
  concatenates_S8x8x32x56x56_S8x8x32x56x56_S8x8x192x56x56_S8x8x256x56x56_d2 : Shape.Concatenates [S8x8x32x56x56, S8x8x32x56x56, S8x8x192x56x56] S8x8x256x56x56 2
  shapeCasts_S8x8x256x56x56_S64x256x56x56 : S8x8x256x56x56.ShapeCasts S64x256x56x56

variable [Facts₀]

class Facts : Prop extends Facts₀ where

variable [Facts]
-- ==== Proof.WordCases.lean ====
/-
  The two cases of the body, over the 32 grid points.

  The grid is 8 clips × 4 channel tiles; point `t` is clip `t / 4`, channel tile `t % 4`. The body branches on
  the channel tile alone: on tile 0 (channels 0–63) it writes the shifted block, on tiles 1–3 (channels 64–255) it
  copies the input block. Exactly one of the two branches is taken at every point, so the output window is stored
  whole at every point and is never idle.
-/
import proofs.«105881_j50242527428854_2_alg».proof.Proof.Gen.Kernel.Frame
import proofs.«105881_j50242527428854_2_alg».proof.Proof.Gen.Kernel.Skeleton

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's channel tile is the first one: the body shifts. -/
abbrev isFirst (i : grid0.Coords) : Prop := k0_cond1 i = 1#1
/-- The point's channel tile is one of the other three: the body copies. -/
abbrev isLater (i : grid0.Coords) : Prop := k0_cond2 i = 1#1

/-- The first tile is met at the points ≡ 0 (mod 4) — decided over the grid. -/
theorem isFirst_iff : ∀ t : Fin cfg0.N, isFirst (grid0.coords t) ↔ t.val % 4 = 0 :=
  (by decide +kernel : ∀ t : Fin grid0.N, isFirst (grid0.coords t) ↔ t.val % 4 = 0)
/-- The other tiles at all the other points. -/
theorem isLater_iff : ∀ t : Fin cfg0.N, isLater (grid0.coords t) ↔ ¬t.val % 4 = 0 :=
  (by decide +kernel : ∀ t : Fin grid0.N, isLater (grid0.coords t) ↔ ¬t.val % 4 = 0)

/-- The input window is never idle. -/
theorem live0 : ∀ t : Fin cfg0.N, cfg0.idle 0 (grid0.coords t) = false := by decide +kernel
/-- Nor is the output window: one of the two branches stores into it at every point. -/
theorem live1 : ∀ t : Fin cfg0.N, cfg0.idle 1 (grid0.coords t) = false := by decide +kernel

/-- Each window's current staging memref at point `t`, as the pipeline passes it to the body, and its wholeness. -/
abbrev inM (t : Fin cfg0.N) : Memref sig .tc .vmem S8x64x3136 .f32 := win0_0.stage (cfg0.slots t 0)
abbrev inW (t : Fin cfg0.N) : (inM t).IsWhole := hstage0_0 ((cfg0.slots t 0).cast nbuf0_0)
abbrev outM (t : Fin cfg0.N) : Memref sig .tc .vmem S8x64x3136 .f32 := win0_1.stage (cfg0.slots t 1)
abbrev outW (t : Fin cfg0.N) : (outM t).IsWhole := hstage0_1 ((cfg0.slots t 1).cast nbuf0_1)
/-- One staging buffer of the output window, through which its contents are stated (the choice does not matter). -/
abbrev outView : View sig .tc .vmem S8x64x3136 .f32 := (Memref.whole cc0_stg1_0 : Memref sig .tc .vmem S8x64x3136 .f32).view

end Cert.Kernel.Tile

end
-- ==== Proof.WordRunShift.lean ====
/-
  The body on the FIRST channel tile. It stores four pieces into the output block: frames 0–6 of channels 0–31 take
  the input's frames 1–7; frame 7 of channels 0–31 is filled with zero; frames 1–7 of channels 32–63 take the input's
  frames 0–6; frame 0 of channels 32–63 is filled with zero. The pieces are the witness the run finds.
-/
import proofs.«105881_j50242527428854_2_alg».proof.Proof.WordCases

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), WITH the proof that on whole
    staging memrefs — the input's at its contents, the output's at anything — the body runs to the continuation
    holding the input's as it was and the output's with the pieces written. -/
noncomputable def runShift (c : Dev nD) (i : grid0.Coords) (arg2 : Memref sig .tc .vmem S8x64x3136 .f32) (harg2 : arg2.IsWhole)
    (arg3 : Memref sig .tc .vmem S8x64x3136 .f32) (harg3 : arg3.IsWhole) (hc0 : isFirst i) (hc1 : ¬isLater i)
    (x0 : Vec F S8x64x3136 .f32) :
    { L1 : List (View.Piece (Elt F) S8x64x3136 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0_kernel i arg2 harg2 arg3 harg3) K } := by
  refine ⟨?_, fun E K => ?run⟩
  case run =>
    simp only [cc0_kernel_eq_skeleton]; unfold cc0_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.Kernel.Tile

end
-- ==== Proof.WordRunCopy.lean ====
/-
  The body on the OTHER channel tiles: the input block is loaded whole and stored whole into the output block, one
  piece. The piece is the witness the run finds.
-/
import proofs.«105881_j50242527428854_2_alg».proof.Proof.WordRunShift

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), WITH the proof that on whole
    staging memrefs — the input's at its contents, the output's at anything — the body runs to the continuation
    holding the input's as it was and the output's with the pieces written. -/
noncomputable def runCopy (c : Dev nD) (i : grid0.Coords) (arg2 : Memref sig .tc .vmem S8x64x3136 .f32) (harg2 : arg2.IsWhole)
    (arg3 : Memref sig .tc .vmem S8x64x3136 .f32) (harg3 : arg3.IsWhole) (hc0 : ¬isFirst i) (hc1 : isLater i)
    (x0 : Vec F S8x64x3136 .f32) :
    { L1 : List (View.Piece (Elt F) S8x64x3136 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0_kernel i arg2 harg2 arg3 harg3) K } := by
  refine ⟨?_, fun E K => ?run⟩
  case run =>
    simp only [cc0_kernel_eq_skeleton]; unfold cc0_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.Kernel.Tile

end
-- ==== Proof.WordFrame.lean ====
/-
  The frame of the program: it runs to the end, faults nowhere, and leaves its argument unchanged.

  After the body at point `t` the input's staging buffer still holds the input block, and the output's holds the
  block the point's case writes: on channel tile 0 the four pieces of the shift, which tile the block in cells of
  one frame × 32 channels × all pixels; on the other tiles the one piece of the copy, which is the whole block.
  Nothing is carried from one point to the next, so the region's invariant is the same at every point.
-/
import proofs.«105881_j50242527428854_2_alg».proof.Proof.WordRunCopy

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The shift's four pieces cover the block: cut into cells of one frame × 32 channels × all pixels they are the
    sixteen cells of the block, each once. -/
theorem coverShift (c : Dev nD) (i : grid0.Coords) (arg2 : Memref sig .tc .vmem S8x64x3136 .f32) (harg2 : arg2.IsWhole)
    (arg3 : Memref sig .tc .vmem S8x64x3136 .f32) (harg3 : arg3.IsWhole) (hc0 : isFirst i) (hc1 : ¬isLater i)
    (x0 : Vec F S8x64x3136 .f32) (y : S8x64x3136.Idx) :
    ∃ pc ∈ (runShift c i arg2 harg2 arg3 harg3 hc0 hc1 x0).1, y ∈ pc.1.set :=
  View.cover_of_tiledBy (runShift c i arg2 harg2 arg3 harg3 hc0 hc1 x0).1 S1x32x3136.size (by sl_kernel_rfl) y

/-- What the shift leaves in the output's staging buffer: its pieces read back. -/
def outShift (c : Dev nD) (i : grid0.Coords) (arg2 : Memref sig .tc .vmem S8x64x3136 .f32) (harg2 : arg2.IsWhole)
    (arg3 : Memref sig .tc .vmem S8x64x3136 .f32) (harg3 : arg3.IsWhole) (hc0 : isFirst i) (hc1 : ¬isLater i)
    (x0 : Vec F S8x64x3136 .f32) : Vec F S8x64x3136 .f32 :=
  outView.read (Elt F) (outView.writes (Elt F) outView.junk (runShift c i arg2 harg2 arg3 harg3 hc0 hc1 x0).1)

/-- The copy's one piece is the whole block. -/
theorem coverCopy (c : Dev nD) (i : grid0.Coords) (arg2 : Memref sig .tc .vmem S8x64x3136 .f32) (harg2 : arg2.IsWhole)
    (arg3 : Memref sig .tc .vmem S8x64x3136 .f32) (harg3 : arg3.IsWhole) (hc0 : ¬isFirst i) (hc1 : isLater i)
    (x0 : Vec F S8x64x3136 .f32) (y : S8x64x3136.Idx) :
    ∃ pc ∈ (runCopy c i arg2 harg2 arg3 harg3 hc0 hc1 x0).1, y ∈ pc.1.set :=
  View.cover_of_tiledL (runCopy c i arg2 harg2 arg3 harg3 hc0 hc1 x0).1 S8x64x3136.size (by sl_kernel_rfl) y

/-- What the copy leaves in the output's staging buffer: its piece read back. -/
def outCopy (c : Dev nD) (i : grid0.Coords) (arg2 : Memref sig .tc .vmem S8x64x3136 .f32) (harg2 : arg2.IsWhole)
    (arg3 : Memref sig .tc .vmem S8x64x3136 .f32) (harg3 : arg3.IsWhole) (hc0 : ¬isFirst i) (hc1 : isLater i)
    (x0 : Vec F S8x64x3136 .f32) : Vec F S8x64x3136 .f32 :=
  outView.read (Elt F) (outView.writes (Elt F) outView.junk (runCopy c i arg2 harg2 arg3 harg3 hc0 hc1 x0).1)

/-- What the output's staging buffer holds after the body at point `t`: the point's case, run at the point's
    memrefs and input block. -/
def outAt (c : Dev nD) (t : Fin cfg0.N) : Vec F S8x64x3136 .f32 :=
  if h0 : t.val % 4 = 0 then
    outShift c (grid0.coords t) (inM t) (inW t) (outM t) (outW t) ((isFirst_iff t).mpr h0) (fun h => (isLater_iff t).mp h h0) (iblk m c 0 t)
  else
    outCopy c (grid0.coords t) (inM t) (inW t) (outM t) (outW t) (fun h => h0 ((isFirst_iff t).mp h)) ((isLater_iff t).mpr h0) (iblk m c 0 t)

theorem outAt_first (c : Dev nD) (t : Fin cfg0.N) (h0 : t.val % 4 = 0) :
    outAt m c t = outShift c (grid0.coords t) (inM t) (inW t) (outM t) (outW t) ((isFirst_iff t).mpr h0) (fun h => (isLater_iff t).mp h h0) (iblk m c 0 t) :=
  dif_pos h0

theorem outAt_later (c : Dev nD) (t : Fin cfg0.N) (h0 : ¬t.val % 4 = 0) :
    outAt m c t = outCopy c (grid0.coords t) (inM t) (inW t) (outM t) (outW t) (fun h => h0 ((isFirst_iff t).mp h)) ((isLater_iff t).mpr h0) (iblk m c 0 t) :=
  dif_neg h0

/-! ## The pipeline's proof data -/

/-- The arrays as the region finds them; after the body at point `t` the input's buffer at its block and the
    output's at `outAt`; the region's invariant the scoped rest and the generator register, the same at every
    point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ d, owns (c : Thread nD τ) (outM t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 1600000 in
/-- The body at any point: the input's memref holds its block; the point's channel tile says which case it is in, and
    that case's run applies — the output's memref is handed over at whatever it held and taken back with the case's
    pieces written, which cover it; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (inM t) fullShare ((dats m 0 c).after 0 t) from by
    unfold Dat.leavesExact; rw [live0 t], after0_0]
  rw [show (dats m 0 c).leavesExact 1 t = owns (c : Thread nD τ) (outM t) fullShare ((dats m 0 c).after 1 t) from by
    unfold Dat.leavesExact; rw [live1 t], after0_1]
  by_cases h0 : t.val % 4 = 0
  · rw [outAt_first m c t h0]
    unfold outShift
    iintro ⟨HΦ, Ho, ⟨%d0, H0⟩, ⟨%d1, H1⟩⟩
    iapply ((runShift c (grid0.coords t) _ _ _ _ ((isFirst_iff t).mpr h0) (fun h => (isLater_iff t).mp h h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverShift c _ _ _ _ _ _ _ _)
  · rw [outAt_later m c t h0]
    unfold outCopy
    iintro ⟨HΦ, Ho, ⟨%d0, H0⟩, ⟨%d1, H1⟩⟩
    iapply ((runCopy c (grid0.coords t) _ _ _ _ (fun h => h0 ((isFirst_iff t).mp h)) ((isLater_iff t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverCopy c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    each array of the pipeline at what the proof data say was written back and every other unscoped buffer as the
    reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Tile

end
-- ==== Proof.IdealCases.lean ====
/-
  The two cases of the body, over the 32 grid points.

  The grid is 8 clips × 4 channel tiles; point `t` is clip `t / 4`, channel tile `t % 4`. The body branches on
  the channel tile alone: on tile 0 (channels 0–63) it writes the shifted block, on tiles 1–3 (channels 64–255) it
  copies the input block. Exactly one of the two branches is taken at every point, so the output window is stored
  whole at every point and is never idle.
-/
import proofs.«105881_j50242527428854_2_alg».proof.Proof.Gen.KernelIdeal.Frame
import proofs.«105881_j50242527428854_2_alg».proof.Proof.Gen.KernelIdeal.Skeleton

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's channel tile is the first one: the body shifts. -/
abbrev isFirst (i : grid0.Coords) : Prop := k0_cond1 i = 1#1
/-- The point's channel tile is one of the other three: the body copies. -/
abbrev isLater (i : grid0.Coords) : Prop := k0_cond2 i = 1#1

/-- The first tile is met at the points ≡ 0 (mod 4) — decided over the grid. -/
theorem isFirst_iff : ∀ t : Fin cfg0.N, isFirst (grid0.coords t) ↔ t.val % 4 = 0 :=
  (by decide +kernel : ∀ t : Fin grid0.N, isFirst (grid0.coords t) ↔ t.val % 4 = 0)
/-- The other tiles at all the other points. -/
theorem isLater_iff : ∀ t : Fin cfg0.N, isLater (grid0.coords t) ↔ ¬t.val % 4 = 0 :=
  (by decide +kernel : ∀ t : Fin grid0.N, isLater (grid0.coords t) ↔ ¬t.val % 4 = 0)

/-- The input window is never idle. -/
theorem live0 : ∀ t : Fin cfg0.N, cfg0.idle 0 (grid0.coords t) = false := by decide +kernel
/-- Nor is the output window: one of the two branches stores into it at every point. -/
theorem live1 : ∀ t : Fin cfg0.N, cfg0.idle 1 (grid0.coords t) = false := by decide +kernel

/-- Each window's current staging memref at point `t`, as the pipeline passes it to the body, and its wholeness. -/
abbrev inM (t : Fin cfg0.N) : Memref sig .tc .vmem S8x64x3136 .f32 := win0_0.stage (cfg0.slots t 0)
abbrev inW (t : Fin cfg0.N) : (inM t).IsWhole := hstage0_0 ((cfg0.slots t 0).cast nbuf0_0)
abbrev outM (t : Fin cfg0.N) : Memref sig .tc .vmem S8x64x3136 .f32 := win0_1.stage (cfg0.slots t 1)
abbrev outW (t : Fin cfg0.N) : (outM t).IsWhole := hstage0_1 ((cfg0.slots t 1).cast nbuf0_1)
/-- One staging buffer of the output window, through which its contents are stated (the choice does not matter). -/
abbrev outView : View sig .tc .vmem S8x64x3136 .f32 := (Memref.whole cc0_stg1_0 : Memref sig .tc .vmem S8x64x3136 .f32).view

end Cert.KernelIdeal.Tile

end
-- ==== Proof.IdealRunShift.lean ====
/-
  The body on the FIRST channel tile. It stores four pieces into the output block: frames 0–6 of channels 0–31 take
  the input's frames 1–7; frame 7 of channels 0–31 is filled with zero; frames 1–7 of channels 32–63 take the input's
  frames 0–6; frame 0 of channels 32–63 is filled with zero. The pieces are the witness the run finds.
-/
import proofs.«105881_j50242527428854_2_alg».proof.Proof.IdealCases

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), WITH the proof that on whole
    staging memrefs — the input's at its contents, the output's at anything — the body runs to the continuation
    holding the input's as it was and the output's with the pieces written. -/
noncomputable def runShift (c : Dev nD) (i : grid0.Coords) (arg2 : Memref sig .tc .vmem S8x64x3136 .f32) (harg2 : arg2.IsWhole)
    (arg3 : Memref sig .tc .vmem S8x64x3136 .f32) (harg3 : arg3.IsWhole) (hc0 : isFirst i) (hc1 : ¬isLater i)
    (x0 : Vec F S8x64x3136 .f32) :
    { L1 : List (View.Piece (Elt F) S8x64x3136 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0_kernel i arg2 harg2 arg3 harg3) K } := by
  refine ⟨?_, fun E K => ?run⟩
  case run =>
    simp only [cc0_kernel_eq_skeleton]; unfold cc0_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.KernelIdeal.Tile

end
-- ==== Proof.IdealRunCopy.lean ====
/-
  The body on the OTHER channel tiles: the input block is loaded whole and stored whole into the output block, one
  piece. The piece is the witness the run finds.
-/
import proofs.«105881_j50242527428854_2_alg».proof.Proof.IdealRunShift

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref, as pieces (last first), WITH the proof that on whole
    staging memrefs — the input's at its contents, the output's at anything — the body runs to the continuation
    holding the input's as it was and the output's with the pieces written. -/
noncomputable def runCopy (c : Dev nD) (i : grid0.Coords) (arg2 : Memref sig .tc .vmem S8x64x3136 .f32) (harg2 : arg2.IsWhole)
    (arg3 : Memref sig .tc .vmem S8x64x3136 .f32) (harg3 : arg3.IsWhole) (hc0 : ¬isFirst i) (hc1 : isLater i)
    (x0 : Vec F S8x64x3136 .f32) :
    { L1 : List (View.Piece (Elt F) S8x64x3136 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc0_kernel i arg2 harg2 arg3 harg3) K } := by
  refine ⟨?_, fun E K => ?run⟩
  case run =>
    simp only [cc0_kernel_eq_skeleton]; unfold cc0_kernel_skel
    unfold owns
    iintro ⟨⟨%f0, %hf0, H0⟩, ⟨%d1, %f1, -, H1⟩, Hk⟩
    obtain rfl := harg2.eq_unread hf0
    sl_exec (disch := first | exact hc0 | exact hc1)
    sl_step
    iapply Hk
    isplitl [H0]
    · iexists _; isplitr; · ipureintro; exact harg2.read_unread _
      iexact H0
    iexists _; iexact H1

end Cert.KernelIdeal.Tile

end
-- ==== Proof.IdealFrame.lean ====
/-
  The frame of the program: it runs to the end, faults nowhere, and leaves its argument unchanged.

  After the body at point `t` the input's staging buffer still holds the input block, and the output's holds the
  block the point's case writes: on channel tile 0 the four pieces of the shift, which tile the block in cells of
  one frame × 32 channels × all pixels; on the other tiles the one piece of the copy, which is the whole block.
  Nothing is carried from one point to the next, so the region's invariant is the same at every point.
-/
import proofs.«105881_j50242527428854_2_alg».proof.Proof.IdealRunCopy

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The shift's four pieces cover the block: cut into cells of one frame × 32 channels × all pixels they are the
    sixteen cells of the block, each once. -/
theorem coverShift (c : Dev nD) (i : grid0.Coords) (arg2 : Memref sig .tc .vmem S8x64x3136 .f32) (harg2 : arg2.IsWhole)
    (arg3 : Memref sig .tc .vmem S8x64x3136 .f32) (harg3 : arg3.IsWhole) (hc0 : isFirst i) (hc1 : ¬isLater i)
    (x0 : Vec F S8x64x3136 .f32) (y : S8x64x3136.Idx) :
    ∃ pc ∈ (runShift c i arg2 harg2 arg3 harg3 hc0 hc1 x0).1, y ∈ pc.1.set :=
  View.cover_of_tiledBy (runShift c i arg2 harg2 arg3 harg3 hc0 hc1 x0).1 S1x32x3136.size (by sl_kernel_rfl) y

/-- What the shift leaves in the output's staging buffer: its pieces read back. -/
def outShift (c : Dev nD) (i : grid0.Coords) (arg2 : Memref sig .tc .vmem S8x64x3136 .f32) (harg2 : arg2.IsWhole)
    (arg3 : Memref sig .tc .vmem S8x64x3136 .f32) (harg3 : arg3.IsWhole) (hc0 : isFirst i) (hc1 : ¬isLater i)
    (x0 : Vec F S8x64x3136 .f32) : Vec F S8x64x3136 .f32 :=
  outView.read (Elt F) (outView.writes (Elt F) outView.junk (runShift c i arg2 harg2 arg3 harg3 hc0 hc1 x0).1)

/-- The copy's one piece is the whole block. -/
theorem coverCopy (c : Dev nD) (i : grid0.Coords) (arg2 : Memref sig .tc .vmem S8x64x3136 .f32) (harg2 : arg2.IsWhole)
    (arg3 : Memref sig .tc .vmem S8x64x3136 .f32) (harg3 : arg3.IsWhole) (hc0 : ¬isFirst i) (hc1 : isLater i)
    (x0 : Vec F S8x64x3136 .f32) (y : S8x64x3136.Idx) :
    ∃ pc ∈ (runCopy c i arg2 harg2 arg3 harg3 hc0 hc1 x0).1, y ∈ pc.1.set :=
  View.cover_of_tiledL (runCopy c i arg2 harg2 arg3 harg3 hc0 hc1 x0).1 S8x64x3136.size (by sl_kernel_rfl) y

/-- What the copy leaves in the output's staging buffer: its piece read back. -/
def outCopy (c : Dev nD) (i : grid0.Coords) (arg2 : Memref sig .tc .vmem S8x64x3136 .f32) (harg2 : arg2.IsWhole)
    (arg3 : Memref sig .tc .vmem S8x64x3136 .f32) (harg3 : arg3.IsWhole) (hc0 : ¬isFirst i) (hc1 : isLater i)
    (x0 : Vec F S8x64x3136 .f32) : Vec F S8x64x3136 .f32 :=
  outView.read (Elt F) (outView.writes (Elt F) outView.junk (runCopy c i arg2 harg2 arg3 harg3 hc0 hc1 x0).1)

/-- What the output's staging buffer holds after the body at point `t`: the point's case, run at the point's
    memrefs and input block. -/
def outAt (c : Dev nD) (t : Fin cfg0.N) : Vec F S8x64x3136 .f32 :=
  if h0 : t.val % 4 = 0 then
    outShift c (grid0.coords t) (inM t) (inW t) (outM t) (outW t) ((isFirst_iff t).mpr h0) (fun h => (isLater_iff t).mp h h0) (iblk m c 0 t)
  else
    outCopy c (grid0.coords t) (inM t) (inW t) (outM t) (outW t) (fun h => h0 ((isFirst_iff t).mp h)) ((isLater_iff t).mpr h0) (iblk m c 0 t)

theorem outAt_first (c : Dev nD) (t : Fin cfg0.N) (h0 : t.val % 4 = 0) :
    outAt m c t = outShift c (grid0.coords t) (inM t) (inW t) (outM t) (outW t) ((isFirst_iff t).mpr h0) (fun h => (isLater_iff t).mp h h0) (iblk m c 0 t) :=
  dif_pos h0

theorem outAt_later (c : Dev nD) (t : Fin cfg0.N) (h0 : ¬t.val % 4 = 0) :
    outAt m c t = outCopy c (grid0.coords t) (inM t) (inW t) (outM t) (outW t) (fun h => h0 ((isFirst_iff t).mp h)) ((isLater_iff t).mpr h0) (iblk m c 0 t) :=
  dif_neg h0

/-! ## The pipeline's proof data -/

/-- The arrays as the region finds them; after the body at point `t` the input's buffer at its block and the
    output's at `outAt`; the region's invariant the scoped rest and the generator register, the same at every
    point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ d, owns (c : Thread nD τ) (outM t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 1600000 in
/-- The body at any point: the input's memref holds its block; the point's channel tile says which case it is in, and
    that case's run applies — the output's memref is handed over at whatever it held and taken back with the case's
    pieces written, which cover it; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (inM t) fullShare ((dats m 0 c).after 0 t) from by
    unfold Dat.leavesExact; rw [live0 t], after0_0]
  rw [show (dats m 0 c).leavesExact 1 t = owns (c : Thread nD τ) (outM t) fullShare ((dats m 0 c).after 1 t) from by
    unfold Dat.leavesExact; rw [live1 t], after0_1]
  by_cases h0 : t.val % 4 = 0
  · rw [outAt_first m c t h0]
    unfold outShift
    iintro ⟨HΦ, Ho, ⟨%d0, H0⟩, ⟨%d1, H1⟩⟩
    iapply ((runShift c (grid0.coords t) _ _ _ _ ((isFirst_iff t).mpr h0) (fun h => (isLater_iff t).mp h h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverShift c _ _ _ _ _ _ _ _)
  · rw [outAt_later m c t h0]
    unfold outCopy
    iintro ⟨HΦ, Ho, ⟨%d0, H0⟩, ⟨%d1, H1⟩⟩
    iapply ((runCopy c (grid0.coords t) _ _ _ _ (fun h => h0 ((isFirst_iff t).mp h)) ((isLater_iff t).mpr h0) (iblk m c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (coverCopy c _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    each array of the pipeline at what the proof data say was written back and every other unscoped buffer as the
    reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Tile

end
-- ==== Proof.TemporalShift.lean ====
/-
  The temporal shift, as one function of the whole array.

  The 64 frames come in 8 clips of 8 frames: frame `8 n + f` is frame `f` of clip `n`. Of the 256 channels the
  first 32 are shifted BACKWARD in time within each clip (frame `f` takes frame `f + 1`; the clip's last frame is
  filled with `z`), the next 32 FORWARD (frame `f` takes frame `f - 1`; the clip's first frame is filled with
  `z`), and the remaining 192 are kept. Nothing is computed: every entry of the result is an entry of the
  argument or `z`, so the statement is over any element type.

  The same shift is stated on the array with its two image axes flattened, `[64, 256, 3136]` (pixel
  `56 h + w`), and the two statements are one: flattening, shifting and unflattening is the shift.
-/
import Idealize.ShloMosaic.Lib.ValueIdx
import Idealize.ShloMosaic.Lib.Pipeline.Value

noncomputable section

namespace Cert.TemporalShift

open Idealize.ShloMosaic Idealize.ShloMosaic.ValueIdx

/-- Frames × channels × height × width. -/
abbrev A4 : Shape := ⟨4, ![64, 256, 56, 56]⟩
/-- Frames × channels × pixels. -/
abbrev A3 : Shape := ⟨3, ![64, 256, 3136]⟩

theorem casts43 : A4.ShapeCasts A3 := by decide
theorem casts34 : A3.ShapeCasts A4 := by decide

variable {α : Type}

/-- Two indices of the 4-axis array with equal coordinates are equal. -/
theorem ext4 (j k : A4.Idx) (h0 : (j 0).val = (k 0).val) (h1 : (j 1).val = (k 1).val) (h2 : (j 2).val = (k 2).val)
    (h3 : (j 3).val = (k 3).val) : j = k :=
  funext fun a => Fin.ext (match a with | ⟨0, _⟩ => h0 | ⟨1, _⟩ => h1 | ⟨2, _⟩ => h2 | ⟨3, _⟩ => h3)

/-- Two indices of the 3-axis array with equal coordinates are equal. -/
theorem ext3 (j k : A3.Idx) (h0 : (j 0).val = (k 0).val) (h1 : (j 1).val = (k 1).val) (h2 : (j 2).val = (k 2).val) : j = k :=
  funext fun a => Fin.ext (match a with | ⟨0, _⟩ => h0 | ⟨1, _⟩ => h1 | ⟨2, _⟩ => h2)

/-- The index of the 4-axis array with the given coordinates. -/
def at4 (a b c d : Nat) (ha : a < 64) (hb : b < 256) (hc : c < 56) (hd : d < 56) : A4.Idx :=
  ix4 (⟨a, ha⟩ : Fin 64) (⟨b, hb⟩ : Fin 256) (⟨c, hc⟩ : Fin 56) (⟨d, hd⟩ : Fin 56)

/-- The index of the 3-axis array with the given coordinates. -/
def at3 (a b p : Nat) (ha : a < 64) (hb : b < 256) (hp : p < 3136) : A3.Idx :=
  ix3 (⟨a, ha⟩ : Fin 64) (⟨b, hb⟩ : Fin 256) (⟨p, hp⟩ : Fin 3136)

theorem lt0_4 (i : A4.Idx) : (i 0).val < 64 := (i 0).isLt
theorem lt1_4 (i : A4.Idx) : (i 1).val < 256 := (i 1).isLt
theorem lt2_4 (i : A4.Idx) : (i 2).val < 56 := (i 2).isLt
theorem lt3_4 (i : A4.Idx) : (i 3).val < 56 := (i 3).isLt
theorem lt0_3 (i : A3.Idx) : (i 0).val < 64 := (i 0).isLt
theorem lt1_3 (i : A3.Idx) : (i 1).val < 256 := (i 1).isLt
theorem lt2_3 (i : A3.Idx) : (i 2).val < 3136 := (i 2).isLt

/-- THE SHIFT on frames × channels × height × width. -/
def shift4 (z : α) (x : A4.Idx → α) : A4.Idx → α := fun i =>
  if (i 1).val < 32 then
    if h : (i 0).val % 8 < 7 then
      x (at4 ((i 0).val + 1) (i 1).val (i 2).val (i 3).val (by have := lt0_4 i; omega) (lt1_4 i) (lt2_4 i) (lt3_4 i))
    else z
  else if (i 1).val < 64 then
    if h : (i 0).val % 8 ≠ 0 then
      x (at4 ((i 0).val - 1) (i 1).val (i 2).val (i 3).val (by have := lt0_4 i; omega) (lt1_4 i) (lt2_4 i) (lt3_4 i))
    else z
  else x i

/-- The same shift on frames × channels × pixels. -/
def shift3 (z : α) (y : A3.Idx → α) : A3.Idx → α := fun i =>
  if (i 1).val < 32 then
    if h : (i 0).val % 8 < 7 then
      y (at3 ((i 0).val + 1) (i 1).val (i 2).val (by have := lt0_3 i; omega) (lt1_3 i) (lt2_3 i))
    else z
  else if (i 1).val < 64 then
    if h : (i 0).val % 8 ≠ 0 then
      y (at3 ((i 0).val - 1) (i 1).val (i 2).val (by have := lt0_3 i; omega) (lt1_3 i) (lt2_3 i))
    else z
  else y i

/-- The shift read at coordinates. -/
theorem shift4_at (z : α) (x : A4.Idx → α) (a b c d : Nat) (ha : a < 64) (hb : b < 256) (hc : c < 56) (hd : d < 56) :
    shift4 z x (at4 a b c d ha hb hc hd)
      = if b < 32 then
          (if h : a % 8 < 7 then x (at4 (a + 1) b c d (by omega) hb hc hd) else z)
        else if b < 64 then
          (if h : a % 8 ≠ 0 then x (at4 (a - 1) b c d (by omega) hb hc hd) else z)
        else x (at4 a b c d ha hb hc hd) := rfl

/-- The flattened shift read at coordinates. -/
theorem shift3_at (z : α) (y : A3.Idx → α) (a b p : Nat) (ha : a < 64) (hb : b < 256) (hp : p < 3136) :
    shift3 z y (at3 a b p ha hb hp)
      = if b < 32 then
          (if h : a % 8 < 7 then y (at3 (a + 1) b p (by omega) hb hp) else z)
        else if b < 64 then
          (if h : a % 8 ≠ 0 then y (at3 (a - 1) b p (by omega) hb hp) else z)
        else y (at3 a b p ha hb hp) := rfl

/-- Every index of the 4-axis array is `at4` of its coordinates. -/
theorem eq_at4 (i : A4.Idx) : i = at4 (i 0).val (i 1).val (i 2).val (i 3).val (lt0_4 i) (lt1_4 i) (lt2_4 i) (lt3_4 i) :=
  ext4 _ _ rfl rfl rfl rfl

/-- Every index of the 3-axis array is `at3` of its coordinates. -/
theorem eq_at3 (i : A3.Idx) : i = at3 (i 0).val (i 1).val (i 2).val (lt0_3 i) (lt1_3 i) (lt2_3 i) :=
  ext3 _ _ rfl rfl rfl

/-- The flattened array read at (frame, channel, pixel) is the array at (frame, channel, pixel / 56, pixel % 56). -/
theorem flat_apply (x : A4.Idx → α) (a b p : Nat) (ha : a < 64) (hb : b < 256) (hp : p < 3136) :
    shapeCast A3 x casts43 (at3 a b p ha hb hp)
      = x (at4 a b (p / 56) (p % 56) ha hb (by omega) (by omega)) := by
  refine shapeCast_apply x casts43 _ _ ?_
  rw [Shape.rowMajor_val_four, Shape.rowMajor_val_three]
  show ((a * 256 + b) * 56 + p / 56) * 56 + p % 56 = (a * 256 + b) * 3136 + p
  omega

/-- Flattening the image axes, shifting, and unflattening is the shift. -/
theorem unflat_shift3_flat (z : α) (x : A4.Idx → α) :
    shapeCast A4 (shift3 z (shapeCast A3 x casts43)) casts34 = shift4 z x := by
  funext i
  obtain ⟨a, b, c, d, ha, hb, hc, hd, rfl⟩ : ∃ a b c d, ∃ (ha : a < 64) (hb : b < 256) (hc : c < 56) (hd : d < 56),
      i = at4 a b c d ha hb hc hd := ⟨_, _, _, _, lt0_4 i, lt1_4 i, lt2_4 i, lt3_4 i, eq_at4 i⟩
  have hp : c * 56 + d < 3136 := by omega
  rw [shapeCast_apply (shift3 z (shapeCast A3 x casts43)) casts34 (at4 a b c d ha hb hc hd) (at3 a b (c * 56 + d) ha hb hp)
    (by rw [Shape.rowMajor_val_three, Shape.rowMajor_val_four]
        show (a * 256 + b) * 3136 + (c * 56 + d) = ((a * 256 + b) * 56 + c) * 56 + d
        omega)]
  rw [shift3_at, shift4_at]
  have hdv : (c * 56 + d) / 56 = c := by omega
  have hmd : (c * 56 + d) % 56 = d := by omega
  by_cases c1 : b < 32
  · rw [if_pos c1, if_pos c1]
    by_cases c2 : a % 8 < 7
    · rw [dif_pos c2, dif_pos c2, flat_apply]
      exact congrArg x (ext4 _ _ rfl rfl hdv hmd)
    · rw [dif_neg c2, dif_neg c2]
  · rw [if_neg c1, if_neg c1]
    by_cases c3 : b < 64
    · rw [if_pos c3, if_pos c3]
      by_cases c4 : a % 8 ≠ 0
      · rw [dif_pos c4, dif_pos c4, flat_apply]
        exact congrArg x (ext4 _ _ rfl rfl hdv hmd)
      · rw [dif_neg c4, dif_neg c4]
    · rw [if_neg c3, if_neg c3, flat_apply]
      exact congrArg x (ext4 _ _ rfl rfl hdv hmd)

end Cert.TemporalShift

end
-- ==== Proof.IdealValue.lean ====
/-
  The idealized kernel's result, as one function of its argument.

  At point `t` (clip `t / 4`, channel tile `t % 4`) the input block is frames `8 (t / 4) … 8 (t / 4) + 7`,
  channels `64 (t % 4) … 64 (t % 4) + 63`, all pixels, of the flattened argument, and the output block is the same
  box of the result. On tile 0 the body writes the block whose frames are moved by one within the clip (backward on
  its channels 0–31, forward on 32–63, the vacated frame zero); on the other tiles it writes the input block back.
  Either way the block written is the same box of the shift of the whole flattened argument. The 32 blocks fill the
  array, so the array the region leaves is that shift, and the reshape after the region unflattens it.
-/
import proofs.«105881_j50242527428854_2_alg».proof.Proof.IdealFrame
import proofs.«105881_j50242527428854_2_alg».proof.Proof.TemporalShift
import Idealize.ShloMosaic.Lib.StableHlo.Run
import Idealize.ShloMosaic.Lib.Pipeline.Value
import Idealize.ShloMosaic.Lib.ValueIdx

set_option maxRecDepth 16384

noncomputable section

namespace Cert.KernelIdeal.Tile

open Idealize.ShloMosaic.ValueIdx Cert.TemporalShift

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero the body fills the vacated frames with. -/
abbrev zero : Elt F .f32 := Scalar.ofBits .f32 0x00000000#32

theorem lt0_b (y : S8x64x3136.Idx) : (y 0).val < 8 := (y 0).isLt
theorem lt1_b (y : S8x64x3136.Idx) : (y 1).val < 64 := (y 1).isLt
theorem lt2_b (y : S8x64x3136.Idx) : (y 2).val < 3136 := (y 2).isLt

/-- The index of a block with the given coordinates. -/
def atB (a b p : Nat) (ha : a < 8) (hb : b < 64) (hp : p < 3136) : S8x64x3136.Idx :=
  ix3 (⟨a, ha⟩ : Fin 8) (⟨b, hb⟩ : Fin 64) (⟨p, hp⟩ : Fin 3136)

/-- The block tile 0 writes, as a function of the input block: on channels 0–31 frame `f` takes frame `f + 1`
    (zero at the last frame), on channels 32–63 frame `f` takes frame `f - 1` (zero at the first). -/
def shiftBlk (x0 : Vec F S8x64x3136 .f32) : Vec F S8x64x3136 .f32 := fun y =>
  if (y 1).val < 32 then
    if h : (y 0).val < 7 then x0 (atB ((y 0).val + 1) (y 1).val (y 2).val (by omega) (lt1_b y) (lt2_b y)) else zero
  else
    if h : (y 0).val ≠ 0 then x0 (atB ((y 0).val - 1) (y 1).val (y 2).val (by have := lt0_b y; omega) (lt1_b y) (lt2_b y)) else zero

/-- Every block index is `atB` of its coordinates. -/
theorem eq_atB (y : S8x64x3136.Idx) : y = atB (y 0).val (y 1).val (y 2).val (lt0_b y) (lt1_b y) (lt2_b y) := by
  funext d; apply Fin.ext
  match d with
  | ⟨0, _⟩ => rfl
  | ⟨1, _⟩ => rfl
  | ⟨2, _⟩ => rfl

/-- The shifted block read at coordinates. -/
theorem shiftBlk_at (x0 : Vec F S8x64x3136 .f32) (a b p : Nat) (ha : a < 8) (hb : b < 64) (hp : p < 3136) :
    shiftBlk x0 (atB a b p ha hb hp)
      = if b < 32 then
          (if h : a < 7 then x0 (atB (a + 1) b p (by omega) hb hp) else zero)
        else
          (if h : a ≠ 0 then x0 (atB (a - 1) b p (by omega) hb hp) else zero) := rfl

/-! ## The block each case writes -/

theorem hz3 : (![0, 0, 0] : Fin 3 → Nat) = fun _ => 0 := funext fun a => by fin_cases a <;> rfl

/-- The copy leaves the input block: its one store's payload is the whole block loaded. -/
theorem outCopy_eq (c : Dev nD) (i : grid0.Coords) (a2 : Memref sig .tc .vmem S8x64x3136 .f32) (h2 : a2.IsWhole)
    (a3 : Memref sig .tc .vmem S8x64x3136 .f32) (h3 : a3.IsWhole) (hc0 : ¬isFirst i) (hc1 : isLater i)
    (x0 : Vec F S8x64x3136 .f32) : outCopy c i a2 h2 a3 h3 hc0 hc1 x0 = x0 := by
  unfold outCopy
  rw [View.read_writes_eq_canon _ _ _ (coverCopy c i a2 h2 a3 h3 hc0 hc1 x0)]
  unfold runCopy
  dsimp only
  rw [View.canon_unit_zero hz3]
  unfold k0_pay5
  simp only [View.readAt_eq_ld, h2.read_unread, View.ld_unit_zero (S := S8x64x3136) hz3, shapeCast_self]

/-- The shift leaves the shifted block: each of its four stores' payloads is that block on the store's rectangle. -/
theorem outShift_eq (c : Dev nD) (i : grid0.Coords) (a2 : Memref sig .tc .vmem S8x64x3136 .f32) (h2 : a2.IsWhole)
    (a3 : Memref sig .tc .vmem S8x64x3136 .f32) (h3 : a3.IsWhole) (hc0 : isFirst i) (hc1 : ¬isLater i)
    (x0 : Vec F S8x64x3136 .f32) : outShift c i a2 h2 a3 h3 hc0 hc1 x0 = shiftBlk x0 := by
  unfold outShift
  have hcov := coverShift c i a2 h2 a3 h3 hc0 hc1 x0
  rw [View.read_writes_eq_canon _ _ _ hcov]
  unfold runShift at hcov ⊢
  dsimp only at hcov ⊢
  funext y
  refine View.canon_apply_of_pieces (shiftBlk x0) _ ?_ y (hcov y)
  intro p hp
  simp only [List.mem_cons, List.not_mem_nil, or_false] at hp
  rcases hp with rfl | rfl | rfl | rfl
  · -- frame 0 of channels 32–63: zero
    intro x
    have x0' : (x 0).val < 1 := (x 0).isLt
    have x1' : (x 1).val < 32 := (x 1).isLt
    have x2' : (x 2).val < 3136 := (x 2).isLt
    have e : (Rect.unit (s := S8x64x3136) ![0, 32, 0] ![1, 32, 3136] inb_S8x64x3136_S1x32x3136_0_32_0).emb x
        = atB (0 + (x 0).val) (32 + (x 1).val) (x 2).val (by omega) (by omega) x2' := by
      funext d; apply Fin.ext
      match d with
      | ⟨0, _⟩ => show 0 + 1 * (x 0).val = 0 + (x 0).val; omega
      | ⟨1, _⟩ => show 32 + 1 * (x 1).val = 32 + (x 1).val; omega
      | ⟨2, _⟩ => show 0 + 1 * (x 2).val = (x 2).val; omega
    show k0_pay4 (F := F) x = shiftBlk x0 ((Rect.unit (s := S8x64x3136) ![0, 32, 0] ![1, 32, 3136] inb_S8x64x3136_S1x32x3136_0_32_0).emb x)
    rw [e, shiftBlk_at, if_neg (by omega), dif_neg (by omega)]
    rfl
  · -- frames 1–7 of channels 32–63: the input's frames 0–6
    intro x
    have x0' : (x 0).val < 7 := (x 0).isLt
    have x1' : (x 1).val < 32 := (x 1).isLt
    have x2' : (x 2).val < 3136 := (x 2).isLt
    have e : (Rect.unit (s := S8x64x3136) ![1, 32, 0] ![7, 32, 3136] inb_S8x64x3136_S7x32x3136_1_32_0).emb x
        = atB (1 + (x 0).val) (32 + (x 1).val) (x 2).val (by omega) (by omega) x2' := by
      funext d; apply Fin.ext
      match d with
      | ⟨0, _⟩ => show 1 + 1 * (x 0).val = 1 + (x 0).val; omega
      | ⟨1, _⟩ => show 32 + 1 * (x 1).val = 32 + (x 1).val; omega
      | ⟨2, _⟩ => show 0 + 1 * (x 2).val = (x 2).val; omega
    show k0_pay3 (View.readAt (Elt F) a2.view (Rect.unit (s := S8x64x3136) ![0, 32, 0] ![7, 32, 3136] inb_S8x64x3136_S7x32x3136_0_32_0).toLoadRect (h2.unread x0)) x
      = shiftBlk x0 ((Rect.unit (s := S8x64x3136) ![1, 32, 0] ![7, 32, 3136] inb_S8x64x3136_S7x32x3136_1_32_0).emb x)
    rw [e, shiftBlk_at, if_neg (by omega), dif_pos (by omega)]
    simp only [k0_pay3, shapeCast_self, View.readAt_eq_ld, h2.read_unread]
    exact congrArg x0 (by
      funext d; apply Fin.ext
      match d with
      | ⟨0, _⟩ => show 0 + 1 * (x 0).val = 1 + (x 0).val - 1; omega
      | ⟨1, _⟩ => show 32 + 1 * (x 1).val = 32 + (x 1).val; omega
      | ⟨2, _⟩ => show 0 + 1 * (x 2).val = (x 2).val; omega)
  · -- frame 7 of channels 0–31: zero
    intro x
    have x0' : (x 0).val < 1 := (x 0).isLt
    have x1' : (x 1).val < 32 := (x 1).isLt
    have x2' : (x 2).val < 3136 := (x 2).isLt
    have e : (Rect.unit (s := S8x64x3136) ![7, 0, 0] ![1, 32, 3136] inb_S8x64x3136_S1x32x3136_7_0_0).emb x
        = atB (7 + (x 0).val) (x 1).val (x 2).val (by omega) (by omega) x2' := by
      funext d; apply Fin.ext
      match d with
      | ⟨0, _⟩ => show 7 + 1 * (x 0).val = 7 + (x 0).val; omega
      | ⟨1, _⟩ => show 0 + 1 * (x 1).val = (x 1).val; omega
      | ⟨2, _⟩ => show 0 + 1 * (x 2).val = (x 2).val; omega
    show k0_pay2 (F := F) x = shiftBlk x0 ((Rect.unit (s := S8x64x3136) ![7, 0, 0] ![1, 32, 3136] inb_S8x64x3136_S1x32x3136_7_0_0).emb x)
    rw [e, shiftBlk_at, if_pos (by omega), dif_neg (by omega)]
    rfl
  · -- frames 0–6 of channels 0–31: the input's frames 1–7
    intro x
    have x0' : (x 0).val < 7 := (x 0).isLt
    have x1' : (x 1).val < 32 := (x 1).isLt
    have x2' : (x 2).val < 3136 := (x 2).isLt
    have e : (Rect.unit (s := S8x64x3136) ![0, 0, 0] ![7, 32, 3136] inb_S8x64x3136_S7x32x3136_0_0_0).emb x
        = atB (x 0).val (x 1).val (x 2).val (by omega) (by omega) x2' := by
      funext d; apply Fin.ext
      match d with
      | ⟨0, _⟩ => show 0 + 1 * (x 0).val = (x 0).val; omega
      | ⟨1, _⟩ => show 0 + 1 * (x 1).val = (x 1).val; omega
      | ⟨2, _⟩ => show 0 + 1 * (x 2).val = (x 2).val; omega
    show k0_pay1 (View.readAt (Elt F) a2.view (Rect.unit (s := S8x64x3136) ![1, 0, 0] ![7, 32, 3136] inb_S8x64x3136_S7x32x3136_1_0_0).toLoadRect (h2.unread x0)) x
      = shiftBlk x0 ((Rect.unit (s := S8x64x3136) ![0, 0, 0] ![7, 32, 3136] inb_S8x64x3136_S7x32x3136_0_0_0).emb x)
    rw [e, shiftBlk_at, if_pos (by omega), dif_pos (by omega)]
    simp only [k0_pay1, shapeCast_self, View.readAt_eq_ld, h2.read_unread]
    exact congrArg x0 (by
      funext d; apply Fin.ext
      match d with
      | ⟨0, _⟩ => show 1 + 1 * (x 0).val = (x 0).val + 1; omega
      | ⟨1, _⟩ => show 0 + 1 * (x 1).val = (x 1).val; omega
      | ⟨2, _⟩ => show 0 + 1 * (x 2).val = (x 2).val; omega)

/-! ## From blocks to the array -/

/-- The printed index maps, decided over the grid: both windows' block at point `t` is block (clip `t / 4`,
    channel tile `t % 4`, 0). -/
theorem idx_facts : ∀ t : Fin cfg0.N, win0_0.index t (0 : Fin 3) = t.val / 4 ∧ win0_0.index t (1 : Fin 3) = t.val % 4
    ∧ win0_0.index t (2 : Fin 3) = 0
    ∧ win0_1.index t (0 : Fin 3) = t.val / 4 ∧ win0_1.index t (1 : Fin 3) = t.val % 4
    ∧ win0_1.index t (2 : Fin 3) = 0 :=
  (by decide +kernel : ∀ t : Fin grid0.N, _)

/-- The flattened argument as the region finds it. -/
abbrev flatArg (c : Dev nD) : S64x256x3136.Idx → Elt F .f32 := V m c main_v0

/-- The input block at point `t`, read at block coordinates: the flattened argument at the block's box. -/
theorem iblk_apply (c : Dev nD) (t : Fin cfg0.N) (a b p : Nat) (ha : a < 8) (hb : b < 64) (hp : p < 3136) :
    iblk m c 0 t (atB a b p ha hb hp)
      = flatArg m c (at3 (t.val / 4 * 8 + a) (t.val % 4 * 64 + b) p
          (by have := lt_of_lt_of_eq t.isLt (show cfg0.N = 32 from N_0); omega) (by omega) hp) := by
  obtain ⟨e0, e1, e2, -, -, -⟩ := idx_facts t
  show V m c main_v0 (((cfg0.win 0).blk t).view.emb (atB a b p ha hb hp)) = _
  refine congrArg (V m c main_v0) ?_
  funext d; apply Fin.ext
  match d with
  | ⟨0, _⟩ => show win0_0.index t (0 : Fin 3) * 8 + 1 * a = t.val / 4 * 8 + a; omega
  | ⟨1, _⟩ => show win0_0.index t (1 : Fin 3) * 64 + 1 * b = t.val % 4 * 64 + b; omega
  | ⟨2, _⟩ => show win0_0.index t (2 : Fin 3) * 3136 + 1 * p = p; omega

/-- Where the output block's index sits in the result at point `t`. -/
theorem oblk_emb (t : Fin cfg0.N) (a b p : Nat) (ha : a < 8) (hb : b < 64) (hp : p < 3136) :
    ((cfg0.win 1).blk t).view.emb (atB a b p ha hb hp)
      = at3 (t.val / 4 * 8 + a) (t.val % 4 * 64 + b) p
          (by have := lt_of_lt_of_eq t.isLt (show cfg0.N = 32 from N_0); omega) (by omega) hp := by
  obtain ⟨-, -, -, e3, e4, e5⟩ := idx_facts t
  funext d; apply Fin.ext
  match d with
  | ⟨0, _⟩ => show win0_1.index t (0 : Fin 3) * 8 + 1 * a = t.val / 4 * 8 + a; omega
  | ⟨1, _⟩ => show win0_1.index t (1 : Fin 3) * 64 + 1 * b = t.val % 4 * 64 + b; omega
  | ⟨2, _⟩ => show win0_1.index t (2 : Fin 3) * 3136 + 1 * p = p; omega

/-- What the output's staging buffer holds after point `t`, read at block coordinates, is the shift of the flattened
    argument at the block's place in the result. -/
theorem outAt_apply (c : Dev nD) (t : Fin cfg0.N) (a b p : Nat) (ha : a < 8) (hb : b < 64) (hp : p < 3136) :
    outAt m c t (atB a b p ha hb hp)
      = shift3 (zero (F := F)) (flatArg m c) (((cfg0.win 1).blk t).view.emb (atB a b p ha hb hp)) := by
  have hN : t.val < 32 := lt_of_lt_of_eq t.isLt (show cfg0.N = 32 from N_0)
  rw [oblk_emb, shift3_at]
  by_cases h0 : t.val % 4 = 0
  · rw [outAt_first m c t h0, outShift_eq, shiftBlk_at]
    by_cases c1 : b < 32
    · rw [if_pos c1, if_pos (show t.val % 4 * 64 + b < 32 by omega)]
      by_cases c2 : a < 7
      · rw [dif_pos c2, dif_pos (show (t.val / 4 * 8 + a) % 8 < 7 by omega), iblk_apply]
        exact congrArg (flatArg m c) (ext3 _ _ (by show t.val / 4 * 8 + (a + 1) = t.val / 4 * 8 + a + 1; omega) rfl rfl)
      · rw [dif_neg c2, dif_neg (show ¬(t.val / 4 * 8 + a) % 8 < 7 by omega)]
    · rw [if_neg c1, if_neg (show ¬t.val % 4 * 64 + b < 32 by omega), if_pos (show t.val % 4 * 64 + b < 64 by omega)]
      by_cases c4 : a ≠ 0
      · rw [dif_pos c4, dif_pos (show (t.val / 4 * 8 + a) % 8 ≠ 0 by omega), iblk_apply]
        exact congrArg (flatArg m c) (ext3 _ _ (by show t.val / 4 * 8 + (a - 1) = t.val / 4 * 8 + a - 1; omega) rfl rfl)
      · rw [dif_neg c4, dif_neg (show ¬(t.val / 4 * 8 + a) % 8 ≠ 0 by omega)]
  · rw [outAt_later m c t h0, outCopy_eq, iblk_apply,
      if_neg (show ¬t.val % 4 * 64 + b < 32 by omega), if_neg (show ¬t.val % 4 * 64 + b < 64 by omega)]

/-- WHAT POINT `t` WRITES BACK is block `t` of the shift of the flattened argument. -/
theorem flushed_eq (c : Dev nD) (t : Fin cfg0.N) :
    (dats m 0 c).flushed 1 t = ((cfg0.win 1).blk t).view.read (Elt F) (shift3 (zero (F := F)) (flatArg m c)) := by
  show (cfg0.win 1).cut (grid0.coords t) ((dats m 0 c).after 1 t) = _
  rw [after0_1]
  funext y
  rw [eq_atB y]
  exact outAt_apply m c t _ _ _ _ _ _

/-- An index of the result is in point `t`'s block iff each coordinate is in the block's range on its axis. -/
theorem mem_oblk (t : Fin cfg0.N) (i : S64x256x3136.Idx) :
    i ∈ ((cfg0.win 1).blk t).view.set ↔ ∀ a : Fin 3, win0_1.index t a * S8x64x3136.size a ≤ (i a).val ∧ (i a).val < win0_1.index t a * S8x64x3136.size a + S8x64x3136.size a := by
  show i ∈ ((View.whole main_v1).slice (win0_1.rect t)).set ↔ _
  rw [View.set_slice_whole, Rect.mem_set_unit]
  exact Iff.rfl

/-- Every index of the result is in some point's block: clip `frame / 8`, channel tile `channel / 64`. -/
theorem covered (i : S64x256x3136.Idx) :
    ∃ t : Fin cfg0.N, (cfg0.win 1).flush t = true ∧ i ∈ ((cfg0.win 1).blk t).view.set := by
  have h0 : (i 0).val < 64 := (i 0).isLt
  have h1 : (i 1).val < 256 := (i 1).isLt
  have h2 : (i 2).val < 3136 := (i 2).isLt
  have hN : cfg0.N = 32 := N_0
  let t : Fin cfg0.N := ⟨(i 0).val / 8 * 4 + (i 1).val / 64, by rw [hN]; omega⟩
  have ht : t.val = (i 0).val / 8 * 4 + (i 1).val / 64 := rfl
  obtain ⟨-, -, -, e3, e4, e5⟩ := idx_facts t
  refine ⟨t, flush0_1 t, ?_⟩
  rw [mem_oblk]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 64 ≤ (i 1).val ∧ (i 1).val < win0_1.index t (1 : Fin 3) * 64 + 64; omega
  | ⟨2, _⟩ => show win0_1.index t (2 : Fin 3) * 3136 ≤ (i 2).val ∧ (i 2).val < win0_1.index t (2 : Fin 3) * 3136 + 3136; omega

/-- THE ARRAY the region leaves: the shift of the flattened argument. -/
theorem final (c : Dev nD) : (dats m 0 c).arrAt 1 cfg0.N = shift3 (zero (F := F)) (flatArg m c) :=
  (dats m 0 c).arrAt_eq_of_cover 1 (shift3 (zero (F := F)) (flatArg m c)) (fun t _ => flushed_eq m c t) covered

/-- The flattened argument is the reshape of the argument. -/
theorem flatArg_eq (c : Dev nD) :
    flatArg m c = shapeCast S64x256x3136 (m ((c : Thread nD τ).loc main_arg0)) shapeCasts_S64x256x56x56_S64x256x3136 := by
  show StableHlo.after hostOps0 (fun b => m (c, b)) (Proc.devRef .tc main_v0) = _
  after_results
  rfl

/-- THE RESULT: the reshape after the region unflattens the array the region leaves, so it is the shift of the argument. -/
theorem result_eq (c : Dev nD) :
    Pipeline.afterTail₀ cfgs (dats m) 0 (V0 m) [hostOps1] c main_v2
      = shift4 (zero (F := F)) (m ((c : Thread nD τ).loc main_arg0)) := by
  unfold Pipeline.afterTail₀
  show StableHlo.after hostOps1 _ (Proc.devRef .tc main_v2) = _
  after_results
  have hw : (Pipeline.withArrays (cfgs 0).spec c (V0 m c) (fun w => (dats m 0 c).arrAt w (cfgs 0).N) (Proc.devRef .tc main_v1)
        : S64x256x3136.Idx → Elt F .f32) = shift3 (zero (F := F)) (flatArg m c) :=
    (Pipeline.withArrays_arr spec0 launch0.win.arr_inj c _ _ 1).trans (final m c)
  rw [hw, flatArg_eq]
  funext i
  exact congrFun (unflat_shift3_flat (zero (F := F)) (m ((c : Thread nD τ).loc main_arg0))) i

/-- THE RUN, READ: the program ends with its result at the shift of its argument and its argument unchanged. -/
theorem run : θ_run defs (onTc (τ := τ) (main (F := F))) ⟨m, fun _ => 0, ρ⟩ fun r => ∀ c : Dev nD,
      r.2.mem ((c.tc : Thread nD τ).loc main_v2) = shift4 (zero (F := F)) (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Tile

end
-- ==== Proof.RefShift.lean ====
/-
  The reference computes the temporal shift.

  It views the 64 frames as 8 clips of 8, cuts the channels into 0–31, 32–63 and 64–255, drops the first frame of
  the first group and appends a zero frame, drops the last frame of the second group and prepends a zero frame, and
  joins the three groups again. Read at an index this is: on channels 0–31 frame `f` of a clip takes frame `f + 1`
  (zero at `f = 7`), on channels 32–63 it takes frame `f - 1` (zero at `f = 0`), elsewhere the entry itself.
-/
import proofs.«105881_j50242527428854_2_alg».proof.Proof.Gen.ReferenceIdeal.Read
import proofs.«105881_j50242527428854_2_alg».proof.Proof.TemporalShift

set_option maxRecDepth 16384

noncomputable section

namespace Cert.ReferenceIdeal.Shift

open Cert.ReferenceIdeal Cert.ReferenceIdeal.Gen Cert.ReferenceIdeal.Read
open Idealize.ShloMosaic Idealize.ShloMosaic.ValueIdx Cert.TemporalShift

variable {F : FTy → Type} [FloatOps F]

/-- The zero the reference pads with. -/
abbrev zero : Elt F .f32 := FloatOps.ofBits .f32 0x00000000#32

variable (x : (⟨S64x256x56x56, .f32⟩ : BufTy).Contents (Elt F))

/-- The array viewed as clips × frames × channels × height × width, read at coordinates: frame `8 n + f`. -/
theorem clips_apply (n f c h w : Nat) (hn : n < 8) (hf : f < 8) (hc : c < 256) (hh : h < 56) (hw : w < 56) :
    val_main_v0 (F := F) x (ix5 (⟨n, hn⟩ : Fin 8) (⟨f, hf⟩ : Fin 8) (⟨c, hc⟩ : Fin 256) (⟨h, hh⟩ : Fin 56) (⟨w, hw⟩ : Fin 56))
      = x (at4 (n * 8 + f) c h w (by omega) hc hh hw) := by
  refine (val_main_v0_apply x _).trans (congrArg x (ext4 _ _ ?_ ?_ ?_ ?_))
  · show ((((n * 8 + f) * 256 + c) * 56 + h) * 56 + w) / 802816 = n * 8 + f; omega
  · show ((((n * 8 + f) * 256 + c) * 56 + h) * 56 + w) / 3136 % 256 = c; omega
  · show ((((n * 8 + f) * 256 + c) * 56 + h) * 56 + w) / 56 % 56 = h; omega
  · show ((((n * 8 + f) * 256 + c) * 56 + h) * 56 + w) % 56 = w; omega

/-- The zero frame, at any index. -/
theorem pad_apply (j : S8x1x32x56x56.Idx) : val_main_v4 (F := F) j = zero :=
  (val_main_v4_apply j).trans rfl

/-- Channels 0–31, frames 1–7 of each clip, read at coordinates. -/
theorem tail_apply (n f c h w : Nat) (hn : n < 8) (hf : f < 7) (hc : c < 32) (hh : h < 56) (hw : w < 56) :
    val_main_v5 (F := F) x (ix5 (⟨n, hn⟩ : Fin 8) (⟨f, hf⟩ : Fin 7) (⟨c, hc⟩ : Fin 32) (⟨h, hh⟩ : Fin 56) (⟨w, hw⟩ : Fin 56))
      = x (at4 (n * 8 + (f + 1)) c h w (by omega) (by omega) hh hw) := by
  refine (val_main_v5_apply x _).trans ((val_main_v1_apply x _).trans ?_)
  refine (congrArg (val_main_v0 (F := F) x) (?_ : _ = ix5 (⟨n, hn⟩ : Fin 8) (⟨f + 1, by omega⟩ : Fin 8) (⟨c, by omega⟩ : Fin 256) (⟨h, hh⟩ : Fin 56) (⟨w, hw⟩ : Fin 56))).trans
    (clips_apply x n (f + 1) c h w hn (by omega) (by omega) hh hw)
  funext a
  refine Fin.ext ?_
  match a with
  | ⟨0, _⟩ => rfl
  | ⟨1, _⟩ => show 1 + f = f + 1; omega
  | ⟨2, _⟩ => rfl
  | ⟨3, _⟩ => rfl
  | ⟨4, _⟩ => rfl

/-- Channels 32–63, frames 0–6 of each clip, read at coordinates. -/
theorem head_apply (n f c h w : Nat) (hn : n < 8) (hf : f < 7) (hc : c < 32) (hh : h < 56) (hw : w < 56) :
    val_main_v7 (F := F) x (ix5 (⟨n, hn⟩ : Fin 8) (⟨f, hf⟩ : Fin 7) (⟨c, hc⟩ : Fin 32) (⟨h, hh⟩ : Fin 56) (⟨w, hw⟩ : Fin 56))
      = x (at4 (n * 8 + f) (32 + c) h w (by omega) (by omega) hh hw) := by
  refine (val_main_v7_apply x _).trans ((val_main_v2_apply x _).trans ?_)
  refine (congrArg (val_main_v0 (F := F) x) (?_ : _ = ix5 (⟨n, hn⟩ : Fin 8) (⟨f, by omega⟩ : Fin 8) (⟨32 + c, by omega⟩ : Fin 256) (⟨h, hh⟩ : Fin 56) (⟨w, hw⟩ : Fin 56))).trans
    (clips_apply x n f (32 + c) h w hn (by omega) (by omega) hh hw)
  funext a
  refine Fin.ext ?_
  match a with
  | ⟨0, _⟩ => rfl
  | ⟨1, _⟩ => rfl
  | ⟨2, _⟩ => rfl
  | ⟨3, _⟩ => rfl
  | ⟨4, _⟩ => rfl

/-- Channels 64–255, read at coordinates. -/
theorem rest_apply (n f c h w : Nat) (hn : n < 8) (hf : f < 8) (hc : c < 192) (hh : h < 56) (hw : w < 56) :
    val_main_v3 (F := F) x (ix5 (⟨n, hn⟩ : Fin 8) (⟨f, hf⟩ : Fin 8) (⟨c, hc⟩ : Fin 192) (⟨h, hh⟩ : Fin 56) (⟨w, hw⟩ : Fin 56))
      = x (at4 (n * 8 + f) (64 + c) h w (by omega) (by omega) hh hw) := by
  refine (val_main_v3_apply x _).trans ?_
  refine (congrArg (val_main_v0 (F := F) x) (?_ : _ = ix5 (⟨n, hn⟩ : Fin 8) (⟨f, hf⟩ : Fin 8) (⟨64 + c, by omega⟩ : Fin 256) (⟨h, hh⟩ : Fin 56) (⟨w, hw⟩ : Fin 56))).trans
    (clips_apply x n f (64 + c) h w hn hf (by omega) hh hw)
  funext a
  refine Fin.ext ?_
  match a with
  | ⟨0, _⟩ => rfl
  | ⟨1, _⟩ => rfl
  | ⟨2, _⟩ => rfl
  | ⟨3, _⟩ => rfl
  | ⟨4, _⟩ => rfl

/-- The first group after its shift: frames 1–7 then a zero frame. -/
theorem back_apply (n f c h w : Nat) (hn : n < 8) (hf : f < 8) (hc : c < 32) (hh : h < 56) (hw : w < 56) :
    val_main_v6 (F := F) x (ix5 (⟨n, hn⟩ : Fin 8) (⟨f, hf⟩ : Fin 8) (⟨c, hc⟩ : Fin 32) (⟨h, hh⟩ : Fin 56) (⟨w, hw⟩ : Fin 56))
      = if h7 : f < 7 then x (at4 (n * 8 + (f + 1)) c h w (by omega) (by omega) hh hw) else zero := by
  unfold val_main_v6
  by_cases h7 : f < 7
  · rw [dif_pos h7]
    refine (concatenate_pair_apply_left (t := S8x8x32x56x56) (s₁ := S8x7x32x56x56) (s₂ := S8x1x32x56x56) 1 _ _ _ _ rfl
      (ix5 (⟨n, hn⟩ : Fin 8) (⟨f, h7⟩ : Fin 7) (⟨c, hc⟩ : Fin 32) (⟨h, hh⟩ : Fin 56) (⟨w, hw⟩ : Fin 56))
      (fun b => match b with | ⟨0, _⟩ => rfl | ⟨1, _⟩ => rfl | ⟨2, _⟩ => rfl | ⟨3, _⟩ => rfl | ⟨4, _⟩ => rfl)).trans ?_
    exact tail_apply x n f c h w hn h7 hc hh hw
  · rw [dif_neg h7]
    refine (concatenate_pair_apply_right (t := S8x8x32x56x56) (s₁ := S8x7x32x56x56) (s₂ := S8x1x32x56x56) 1 _ _ _ _ rfl rfl
      (ix5 (⟨n, hn⟩ : Fin 8) (⟨0, by omega⟩ : Fin 1) (⟨c, hc⟩ : Fin 32) (⟨h, hh⟩ : Fin 56) (⟨w, hw⟩ : Fin 56))
      (fun b hb => match b, hb with | ⟨0, _⟩, _ => rfl | ⟨1, _⟩, hb => absurd rfl hb | ⟨2, _⟩, _ => rfl | ⟨3, _⟩, _ => rfl | ⟨4, _⟩, _ => rfl)
      (by show 0 + 7 = f; omega)).trans ?_
    exact pad_apply _

/-- The second group after its shift: a zero frame then frames 0–6. -/
theorem fwd_apply (n f c h w : Nat) (hn : n < 8) (hf : f < 8) (hc : c < 32) (hh : h < 56) (hw : w < 56) :
    val_main_v8 (F := F) x (ix5 (⟨n, hn⟩ : Fin 8) (⟨f, hf⟩ : Fin 8) (⟨c, hc⟩ : Fin 32) (⟨h, hh⟩ : Fin 56) (⟨w, hw⟩ : Fin 56))
      = if h0 : f ≠ 0 then x (at4 (n * 8 + (f - 1)) (32 + c) h w (by omega) (by omega) hh hw) else zero := by
  unfold val_main_v8
  by_cases h0 : f ≠ 0
  · rw [dif_pos h0]
    refine (concatenate_pair_apply_right (t := S8x8x32x56x56) (s₁ := S8x1x32x56x56) (s₂ := S8x7x32x56x56) 1 _ _ _ _ rfl rfl
      (ix5 (⟨n, hn⟩ : Fin 8) (⟨f - 1, by omega⟩ : Fin 7) (⟨c, hc⟩ : Fin 32) (⟨h, hh⟩ : Fin 56) (⟨w, hw⟩ : Fin 56))
      (fun b hb => match b, hb with | ⟨0, _⟩, _ => rfl | ⟨1, _⟩, hb => absurd rfl hb | ⟨2, _⟩, _ => rfl | ⟨3, _⟩, _ => rfl | ⟨4, _⟩, _ => rfl)
      (by show f - 1 + 1 = f; omega)).trans ?_
    exact head_apply x n (f - 1) c h w hn (by omega) hc hh hw
  · rw [dif_neg h0]
    have hf0 : f = 0 := by omega
    subst hf0
    refine (concatenate_pair_apply_left (t := S8x8x32x56x56) (s₁ := S8x1x32x56x56) (s₂ := S8x7x32x56x56) 1 _ _ _ _ rfl
      (ix5 (⟨n, hn⟩ : Fin 8) (⟨0, by omega⟩ : Fin 1) (⟨c, hc⟩ : Fin 32) (⟨h, hh⟩ : Fin 56) (⟨w, hw⟩ : Fin 56))
      (fun b => match b with | ⟨0, _⟩ => rfl | ⟨1, _⟩ => rfl | ⟨2, _⟩ => rfl | ⟨3, _⟩ => rfl | ⟨4, _⟩ => rfl)).trans ?_
    exact pad_apply _

/-- The three groups joined, read at coordinates. -/
theorem joined_apply (n f c h w : Nat) (hn : n < 8) (hf : f < 8) (hc : c < 256) (hh : h < 56) (hw : w < 56) :
    val_main_v9 (F := F) x (ix5 (⟨n, hn⟩ : Fin 8) (⟨f, hf⟩ : Fin 8) (⟨c, hc⟩ : Fin 256) (⟨h, hh⟩ : Fin 56) (⟨w, hw⟩ : Fin 56))
      = if c < 32 then
          (if h7 : f < 7 then x (at4 (n * 8 + (f + 1)) c h w (by omega) hc hh hw) else zero)
        else if c < 64 then
          (if h0 : f ≠ 0 then x (at4 (n * 8 + (f - 1)) c h w (by omega) hc hh hw) else zero)
        else x (at4 (n * 8 + f) c h w (by omega) hc hh hw) := by
  unfold val_main_v9
  by_cases c1 : c < 32
  · rw [if_pos c1]
    refine (concatenate_apply_piece (t := S8x8x256x56x56) 2 _ _ _ 0 (by simp) S8x8x32x56x56 (val_main_v6 (F := F) x) rfl rfl 0 rfl
      (ix5 (⟨n, hn⟩ : Fin 8) (⟨f, hf⟩ : Fin 8) (⟨c, c1⟩ : Fin 32) (⟨h, hh⟩ : Fin 56) (⟨w, hw⟩ : Fin 56))
      (fun b hb => match b, hb with | ⟨0, _⟩, _ => rfl | ⟨1, _⟩, _ => rfl | ⟨2, _⟩, hb => absurd rfl hb | ⟨3, _⟩, _ => rfl | ⟨4, _⟩, _ => rfl)
      (by show 0 + c = c; omega)).trans ?_
    exact back_apply x n f c h w hn hf c1 hh hw
  · rw [if_neg c1]
    by_cases c2 : c < 64
    · rw [if_pos c2]
      refine (concatenate_apply_piece (t := S8x8x256x56x56) 2 _ _ _ 1 (by simp) S8x8x32x56x56 (val_main_v8 (F := F) x) rfl rfl 32 rfl
        (ix5 (⟨n, hn⟩ : Fin 8) (⟨f, hf⟩ : Fin 8) (⟨c - 32, by omega⟩ : Fin 32) (⟨h, hh⟩ : Fin 56) (⟨w, hw⟩ : Fin 56))
        (fun b hb => match b, hb with | ⟨0, _⟩, _ => rfl | ⟨1, _⟩, _ => rfl | ⟨2, _⟩, hb => absurd rfl hb | ⟨3, _⟩, _ => rfl | ⟨4, _⟩, _ => rfl)
        (by show 32 + (c - 32) = c; omega)).trans ?_
      refine (fwd_apply x n f (c - 32) h w hn hf (by omega) hh hw).trans ?_
      by_cases h0 : f ≠ 0
      · rw [dif_pos h0, dif_pos h0]
        exact congrArg x (ext4 _ _ rfl (by show 32 + (c - 32) = c; omega) rfl rfl)
      · rw [dif_neg h0, dif_neg h0]
    · rw [if_neg c2]
      refine (concatenate_apply_piece (t := S8x8x256x56x56) 2 _ _ _ 2 (by simp) S8x8x192x56x56 (val_main_v3 (F := F) x) rfl rfl 64 rfl
        (ix5 (⟨n, hn⟩ : Fin 8) (⟨f, hf⟩ : Fin 8) (⟨c - 64, by omega⟩ : Fin 192) (⟨h, hh⟩ : Fin 56) (⟨w, hw⟩ : Fin 56))
        (fun b hb => match b, hb with | ⟨0, _⟩, _ => rfl | ⟨1, _⟩, _ => rfl | ⟨2, _⟩, hb => absurd rfl hb | ⟨3, _⟩, _ => rfl | ⟨4, _⟩, _ => rfl)
        (by show 64 + (c - 64) = c; omega)).trans ?_
      refine (rest_apply x n f (c - 64) h w hn hf (by omega) hh hw).trans ?_
      exact congrArg x (ext4 _ _ rfl (by show 64 + (c - 64) = c; omega) rfl rfl)

/-- THE REFERENCE IS THE SHIFT: its result, as a function of its argument, is `shift4` with its own zero. -/
theorem result_eq : val_main_v10 (F := F) x = shift4 (zero (F := F)) x := by
  funext i
  have h0 := lt0_4 i; have h1 := lt1_4 i; have h2 := lt2_4 i; have h3 := lt3_4 i
  refine (val_main_v10_apply x i).trans ?_
  have hj : idx_main_v10 i = ix5 (⟨(i 0).val / 8, by omega⟩ : Fin 8) (⟨(i 0).val % 8, by omega⟩ : Fin 8) (⟨(i 1).val, h1⟩ : Fin 256)
      (⟨(i 2).val, h2⟩ : Fin 56) (⟨(i 3).val, h3⟩ : Fin 56) := by
    funext a
    refine Fin.ext ?_
    match a with
    | ⟨0, _⟩ => show ((((i 0).val * 256 + (i 1).val) * 56 + (i 2).val) * 56 + (i 3).val) / 6422528 = (i 0).val / 8; omega
    | ⟨1, _⟩ => show ((((i 0).val * 256 + (i 1).val) * 56 + (i 2).val) * 56 + (i 3).val) / 802816 % 8 = (i 0).val % 8; omega
    | ⟨2, _⟩ => show ((((i 0).val * 256 + (i 1).val) * 56 + (i 2).val) * 56 + (i 3).val) / 3136 % 256 = (i 1).val; omega
    | ⟨3, _⟩ => show ((((i 0).val * 256 + (i 1).val) * 56 + (i 2).val) * 56 + (i 3).val) / 56 % 56 = (i 2).val; omega
    | ⟨4, _⟩ => show ((((i 0).val * 256 + (i 1).val) * 56 + (i 2).val) * 56 + (i 3).val) % 56 = (i 3).val; omega
  rw [hj, joined_apply]
  unfold shift4
  by_cases c1 : (i 1).val < 32
  · rw [if_pos c1, if_pos c1]
    by_cases c2 : (i 0).val % 8 < 7
    · rw [dif_pos c2, dif_pos c2]
      exact congrArg x (ext4 _ _ (by show (i 0).val / 8 * 8 + ((i 0).val % 8 + 1) = (i 0).val + 1; omega) rfl rfl rfl)
    · rw [dif_neg c2, dif_neg c2]
  · rw [if_neg c1, if_neg c1]
    by_cases c3 : (i 1).val < 64
    · rw [if_pos c3, if_pos c3]
      by_cases c4 : (i 0).val % 8 ≠ 0
      · rw [dif_pos c4, dif_pos c4]
        exact congrArg x (ext4 _ _ (by show (i 0).val / 8 * 8 + ((i 0).val % 8 - 1) = (i 0).val - 1; omega) rfl rfl rfl)
      · rw [dif_neg c4, dif_neg c4]
    · rw [if_neg c3, if_neg c3]
      exact congrArg x (ext4 _ _ (by show (i 0).val / 8 * 8 + (i 0).val % 8 = (i 0).val; omega) rfl rfl rfl)

end Cert.ReferenceIdeal.Shift

end
-- ==== Proof.lean ====
/-
  The certificate of the temporal shift kernel against its reference.

  Both programs move frames within clips of eight on the first 64 channels and keep the other 192: the kernel block by
  block on the array with its image axes flattened, the reference by slicing and joining the array viewed clip by
  clip. Read at an index both are one function of the argument, `Cert.TemporalShift.shift4` with the zero both
  programs spell by the same word, so their results are equal entry by entry; nothing is computed on the entries, so
  the precondition is never opened. The three programs run to the end and leave their argument unchanged: the
  kernel's two readings by the body's run in its two cases (the first channel tile, the others), the reference by
  its run as a list of host operations.
-/
import proofs.«105881_j50242527428854_2_alg».proof.Defs
import proofs.«105881_j50242527428854_2_alg».proof.Proof.WordFrame
import proofs.«105881_j50242527428854_2_alg».proof.Proof.IdealValue
import proofs.«105881_j50242527428854_2_alg».proof.Proof.RefShift
import proofs.«105881_j50242527428854_2_alg».proof.Proof.Gen.Kernel
import proofs.«105881_j50242527428854_2_alg».proof.Proof.Gen.KernelIdeal
import proofs.«105881_j50242527428854_2_alg».proof.Proof.Gen.ReferenceIdeal
import proofs.«105881_j50242527428854_2_alg».proof.Proof.Gen.ReferenceIdeal.Run
import proofs.«105881_j50242527428854_2_alg».proof.Proof.Gen.ReferenceIdeal.Read
import proofs.«105881_j50242527428854_2_alg».proof.Proof.Gen.Pre_finite_inputs
import Idealize.ShloMosaic.Adequacy
import Idealize.ShloMosaic.Init

noncomputable section

namespace Cert.Proof

open Idealize.ShloMosaic Idealize.SL.Sem

/-- The word-level kernel runs and keeps its argument. -/
theorem frame_k : Cert.frame_Kernel := fun m ρ _ => Cert.Kernel.Tile.frame m ρ

/-- So does its idealization. -/
theorem frame_ki : Cert.frame_KernelIdeal := fun m ρ _ => Cert.KernelIdeal.Tile.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both results are the shift of the argument. -/
theorem algebraic : Cert.algebraic_KernelIdeal_ReferenceIdeal := by
  intro m ρ m' ρ' _ hagree
  refine ⟨fun c => Cert.TemporalShift.shift4 (Cert.KernelIdeal.Tile.zero (F := Ideal)) (m ((c.tc : Thread Cert.KernelIdeal.nD Cert.KernelIdeal.τ).loc Cert.KernelIdeal.main_arg0)),
    Cert.KernelIdeal.Tile.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Shift.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
